-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S4x4096x2048 .f32) (main_arg1 : FVec F S2048x2048 .f32) (main_arg2 : FVec F S2048 .f32) (main_arg3 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S4x4096x2048, .f32⟩
  | .hbm, ⟨6, _⟩ => ⟨S1x1x2048, .f32⟩
  | .hbm, ⟨7, _⟩ => ⟨S4x4096x2048, .f32⟩
  | .hbm, ⟨8, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LayerSpec.lean ====
/-
  The masked linear layer as ONE function of its four argument arrays, over the extended reals:

      y (b, s, o) = (∑ k, x (b, s, k) · (w (o, k) · mask (o, k))) + bias o.

  The weight is masked entry by entry before it is contracted; the contraction runs over the feature coordinate `k`,
  which is the LAST axis of the activation and the LAST axis of the weight (the weight enters transposed); the bias of
  output feature `o` is added to every row. No program is mentioned here: this is the function both programs' results are
  compared with, index by index.
-/
import Idealize.ShloMosaic.Lib.ValueIdx
import Idealize.ShloMosaic.PureOps.Ideal

noncomputable section

namespace Cert.MaskedLinear

open Idealize.ShloMosaic Idealize.ShloMosaic.ValueIdx

/-- The layer's value at every index `(b, s, o)` of the `[4, 4096, 2048]` result. -/
def layer (x : FVec Ideal ⟨3, ![4, 4096, 2048]⟩ .f32) (w mask : FVec Ideal ⟨2, ![2048, 2048]⟩ .f32)
    (bias : FVec Ideal ⟨1, ![2048]⟩ .f32) : FVec Ideal ⟨3, ![4, 4096, 2048]⟩ .f32 :=
  fun i => (∑ k : Fin 2048, x (ix3 (i 0) (i 1) k) * (w (ix2 (i 2) k) * mask (ix2 (i 2) k))) + bias (ix1 (i 2))

/-- The same at named coordinates: batch `b`, position `s`, output feature `o`. -/
theorem layer_apply (x : FVec Ideal ⟨3, ![4, 4096, 2048]⟩ .f32) (w mask : FVec Ideal ⟨2, ![2048, 2048]⟩ .f32)
    (bias : FVec Ideal ⟨1, ![2048]⟩ .f32) (b : Fin 4) (s : Fin 4096) (o : Fin 2048) :
    layer x w mask bias (ix3 b s o)
      = (∑ k : Fin 2048, x (ix3 b s k) * (w (ix2 o k) * mask (ix2 o k))) + bias (ix1 o) := rfl

end Cert.MaskedLinear

end
-- ==== Proof.ReferenceIsLayer.lean ====
/-
  The reference program computes the masked linear layer. Its five operations are: the elementwise product of weight and
  mask; the contraction of the activation's last axis with the masked weight's last axis, which leaves the result at
  `(b, s, o)` as a sum over the feature coordinate; the bias viewed as `[1, 1, 2048]` and then laid over the two leading
  axes, which reads at `(b, s, o)` the bias at `o`; and the sum of the two. Read at an index, operation by operation, that
  is the layer's formula term for term; what is left to say is that the index each operation reads its operand at is the
  one the formula names.
-/
import proofs.«102846_j91104846283071_2_alg».proof.Proof.Gen.ReferenceIdeal.Read
import proofs.«102846_j91104846283071_2_alg».proof.Proof.LayerSpec

noncomputable section

namespace Cert.ReferenceIdeal.RefValue

open Cert.ReferenceIdeal Cert.ReferenceIdeal.Read Idealize.ShloMosaic Idealize.ShloMosaic.ValueIdx

/-- The contraction reads the activation at `(b, s, k)`. -/
theorem lhs_index (i : S4x4096x2048.Idx) (k : Fin 2048) : lidx_main_v1 i k = ix3 (i 0) (i 1) k :=
  funext fun a => Fin.ext (by match a with | ⟨0, _⟩ => rfl | ⟨1, _⟩ => rfl | ⟨2, _⟩ => rfl)

/-- The contraction reads the masked weight at `(o, k)`: row `o` is the result's last coordinate. -/
theorem rhs_index (i : S4x4096x2048.Idx) (k : Fin 2048) : ridx_main_v1 i k = ix2 (i 2) k :=
  funext fun a => Fin.ext (by match a with | ⟨0, _⟩ => rfl | ⟨1, _⟩ => rfl)

/-- Through both of its broadcasts the bias is read at `o`. -/
theorem bias_index (i : S4x4096x2048.Idx) : idx_main_v2 (idx_main_v3 i) = ix1 (i 2) :=
  funext fun a => Fin.ext (by match a with | ⟨0, _⟩ => rfl)

/-- The reference's result, as a function of the four arguments, is the layer. -/
theorem ref_eq_layer (x0 : FVec Ideal S4x4096x2048 .f32) (x1 : FVec Ideal S2048x2048 .f32) (x2 : FVec Ideal S2048 .f32)
    (x3 : FVec Ideal S2048x2048 .f32) :
    val_main_v4 (F := Ideal) x0 x1 x2 x3 = Cert.MaskedLinear.layer x0 x1 x3 x2 := by
  funext i
  rw [val_main_v4_apply, val_main_v1_apply, val_main_v3_apply, val_main_v2_apply, bias_index]
  simp only [val_main_v0_apply, lhs_index, rhs_index]
  rfl

end Cert.ReferenceIdeal.RefValue

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.BodyAtIndex.lean ====
/-
  What one grid point's body computes, read at an index of its `[512, 2048]` output tile. The body narrows its activation
  tile (the identity on the extended reals), multiplies it by the already masked weight with BOTH operands contracted on
  their last axis into a zero accumulator, and adds the one bias row laid over the 512 rows. So at row `p`, column `q`:

      tile (p, q) = (∑ k, x (p, k) · w (q, k)) + bias (0, q).
-/
import proofs.«102846_j91104846283071_2_alg».proof.Proof.Gen.KernelIdeal.Skeleton
import proofs.«102846_j91104846283071_2_alg».proof.Proof.LibHiLoMatmul
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The stored tile at `(p, q)`: the inner product of activation row `p` with weight row `q`, plus the bias at `q`. -/
theorem tile_apply (x : Vec Ideal S512x2048 .f32) (w : Vec Ideal S2048x2048 .bf16) (bias : Vec Ideal S1x2048 .f32)
    (p : Fin 512) (q : Fin 2048) :
    k0_pay1 (F := Ideal) x w bias (ix2 p q)
      = (∑ k : Fin 2048, x (ix2 p k) * w (ix2 q k)) + bias (ix2 (0 : Fin 1) q) := by
  unfold k0_pay1
  simp only [shapeCast_self]
  rw [addf_apply]
  refine congrArg₂ (· + ·) ?_ (broadcastTo_1b_ab_apply _ _ p q)
  exact Cert.HiLoMatmul.matmul_nt_zero_apply dot_S512x2048_S2048x2048_S512x2048_1_1_0_0_n_n_wf none _ _ p q

end Cert.KernelIdeal.Body

end
-- ==== Proof.RegionArray.lean ====
/-
  From one tile to the whole array. The region's result array has `16384` rows; grid point `t` (of 32) computes rows
  `512 · t … 512 · t + 511`, all `2048` columns, from rows `512 · t …` of the flattened activation, from the WHOLE masked
  weight and from the WHOLE bias row (their blocks do not move with the point). So every tile is the restriction, to its
  rows, of one function of the three arrays the region finds:

      rows (r, o) = (∑ k, X (r, k) · W (o, k)) + B (0, o),

  and since the 32 tiles cover every row, the array ends holding that function.
-/
import proofs.«102846_j91104846283071_2_alg».proof.Proof.Gen.KernelIdeal.Frame
import proofs.«102846_j91104846283071_2_alg».proof.Proof.BodyAtIndex
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Row `r` of the flattened activation against row `o` of the masked weight, plus the bias at `o`. -/
def rows (X : FVec Ideal S16384x2048 .f32) (W : FVec Ideal S2048x2048 .bf16) (B : FVec Ideal S1x2048 .f32) :
    FVec Ideal S16384x2048 .f32 :=
  fun j => (∑ k : Fin 2048, X (ix2 (j 0) k) * W (ix2 (j 1) k)) + B (ix2 (0 : Fin 1) (j 1))

theorem zero_offsets : (![0, 0] : Fin 2 → Nat) = fun _ => 0 := funext fun a => by fin_cases a <;> rfl

/-- Where each window's block sits at point `t`: the activation's block moves with the output's along the rows; the
    weight's and the bias's blocks stay at the origin; no block moves along the columns. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 32 row blocks is some point's. -/
theorem block_onto : ∀ q : Fin 32, ∃ t : Fin cfg0.N, win0_3.index t = ![q.val, 0] :=
  (by decide +kernel : ∀ q : Fin 32, ∃ t : Fin grid0.N, win0_3.index t = ![q.val, 0])

/-- What point `t` writes back is block `t` of `rows` of the arrays the region finds. -/
theorem flushed_eq (c : Dev nD) (t : Fin cfg0.N) :
    (dats m 0 c).flushed 3 t
      = ((cfg0.win 3).blk t).view.read (Elt Ideal) (rows (V m c main_v2) (V m c main_v1) (V m c main_v3)) := by
  show (cfg0.win 3).cut (grid0.coords t) ((dats m 0 c).after 3 t) = _
  rw [after0_3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨e0, e1, e2, e3, e4, e5, e6⟩ := block_indices t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (ix2 p q)
      = rows (V m c main_v2) (V m c main_v1) (V m c main_v3) (((cfg0.win 3).blk t).view.emb (ix2 p q))
  refine (Body.tile_apply (iblk m c 0 t) (iblk m c 1 t) (iblk m c 2 t) p q).trans ?_
  unfold rows
  -- the activation's block at `(p, k)` is the flattened activation at the output block's row, column `k`
  have hX : ∀ k : Fin 2048, (iblk m c 0 t : Vec Ideal S512x2048 .f32) (ix2 p k)
      = V m c main_v2 (ix2 ((((cfg0.win 3).blk t).view.emb (ix2 p q)) 0) k) := fun k => by
    show V m c main_v2 (((cfg0.win 0).blk t).view.emb (ix2 p k)) = _
    refine congrArg (V m c main_v2) (funext fun a => Fin.ext ?_)
    match a with
    | ⟨0, _⟩ =>
      show win0_0.index t (0 : Fin 2) * 512 + 1 * p.val = win0_3.index t (0 : Fin 2) * 512 + 1 * p.val
      rw [e0]
    | ⟨1, _⟩ =>
      show win0_0.index t (1 : Fin 2) * 2048 + 1 * k.val = k.val
      rw [e1]; omega
  -- the weight's block is the whole masked weight: row `q` is the output block's column
  have hW : ∀ k : Fin 2048, (iblk m c 1 t : Vec Ideal S2048x2048 .bf16) (ix2 q k)
      = V m c main_v1 (ix2 ((((cfg0.win 3).blk t).view.emb (ix2 p q)) 1) k) := fun k => by
    show V m c main_v1 (((cfg0.win 1).blk t).view.emb (ix2 q k)) = _
    refine congrArg (V m c main_v1) (funext fun a => Fin.ext ?_)
    match a with
    | ⟨0, _⟩ =>
      show win0_1.index t (0 : Fin 2) * 2048 + 1 * q.val = win0_3.index t (1 : Fin 2) * 2048 + 1 * q.val
      rw [e2, e6]
    | ⟨1, _⟩ =>
      show win0_1.index t (1 : Fin 2) * 2048 + 1 * k.val = k.val
      rw [e3]; omega
  -- the bias's block is the whole bias row
  have hB : (iblk m c 2 t : Vec Ideal S1x2048 .f32) (ix2 (0 : Fin 1) q)
      = V m c main_v3 (ix2 (0 : Fin 1) ((((cfg0.win 3).blk t).view.emb (ix2 p q)) 1)) := by
    show V m c main_v3 (((cfg0.win 2).blk t).view.emb (ix2 (0 : Fin 1) q)) = _
    refine congrArg (V m c main_v3) (funext fun a => Fin.ext ?_)
    match a with
    | ⟨0, _⟩ =>
      show win0_2.index t (0 : Fin 2) * 1 + 1 * 0 = 0
      rw [e4]
    | ⟨1, _⟩ =>
      show win0_2.index t (1 : Fin 2) * 2048 + 1 * q.val = win0_3.index t (1 : Fin 2) * 2048 + 1 * q.val
      rw [e5, e6]
  exact congrArg₂ (· + ·) (Finset.sum_congr rfl fun k _ => congrArg₂ (· * ·) (hX k) (hW k)) hB

/-- An index of the result array is in point `t`'s block iff each coordinate is in the block's range on its axis. -/
theorem mem_block (t : Fin cfg0.N) (i : S16384x2048.Idx) :
    i ∈ ((cfg0.win 3).blk t).view.set
      ↔ ∀ a : Fin 2, win0_3.index t a * S512x2048.size a ≤ (i a).val
          ∧ (i a).val < win0_3.index t a * S512x2048.size a + S512x2048.size a := by
  show i ∈ ((View.whole main_v4).slice (win0_3.rect t)).set ↔ _
  rw [View.set_slice_whole, Rect.mem_set_unit]
  exact Iff.rfl

/-- Row `r` lies in the block of the point whose block index is `r / 512`: the 32 blocks cover the array. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := block_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- The result array after the region: `rows` of the three arrays the region finds. -/
theorem region_result (c : Dev nD) :
    (dats m 0 c).arrAt 3 cfg0.N = rows (V m c main_v2) (V m c main_v1) (V m c main_v3) :=
  (dats m 0 c).arrAt_eq_of_cover 3 (rows (V m c main_v2) (V m c main_v1) (V m c main_v3))
    (fun t _ => flushed_eq m c t) (covered)

end Cert.KernelIdeal.Region

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.RegionInputs.lean ====
/-
  What the region finds in its three input arrays, read at an index. Before the region the program forms, on the host,
  the masked weight (the elementwise product of weight and mask, then narrowed — the identity on the extended reals), the
  activation flattened from `[4, 4096, 2048]` to `[16384, 2048]` (row `b · 4096 + s` is the fibre `(b, s, ·)`), and the bias
  viewed as the one row `[1, 2048]`. None of these lines writes an argument array.
-/
import proofs.«102846_j91104846283071_2_alg».proof.Proof.Gen.KernelIdeal.Frame
import proofs.«102846_j91104846283071_2_alg».proof.Proof.LibRank3Layout
import Idealize.ShloMosaic.Lib.ValueLayout
import Idealize.ShloMosaic.Lib.StableHlo.Run

noncomputable section

namespace Cert.KernelIdeal.Inputs

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The four argument arrays as launched, each at its literal shape: activation, weight, bias, mask. -/
abbrev argX (c : Dev nD) : FVec Ideal S4x4096x2048 .f32 := m ((c : Thread nD τ).loc main_arg0)
abbrev argW (c : Dev nD) : FVec Ideal S2048x2048 .f32 := m ((c : Thread nD τ).loc main_arg1)
abbrev argB (c : Dev nD) : FVec Ideal S2048 .f32 := m ((c : Thread nD τ).loc main_arg2)
abbrev argM (c : Dev nD) : FVec Ideal S2048x2048 .f32 := m ((c : Thread nD τ).loc main_arg3)

/-- The three arrays the region's input windows are cut from, as the region finds them. -/
abbrev foundX (c : Dev nD) : FVec Ideal S16384x2048 .f32 := V m c main_v2
abbrev foundW (c : Dev nD) : FVec Ideal S2048x2048 .bf16 := V m c main_v1
abbrev foundB (c : Dev nD) : FVec Ideal S1x2048 .f32 := V m c main_v3

/-- The second operand's array: weight times mask, entry by entry. -/
theorem weight_found (c : Dev nD) :
    foundW m c = truncf (F := Ideal) .bf16 (mulf (argW m c) (argM m c)) bitsLt_bf16_f32 := by
  show StableHlo.after hostOps0 (fun b => m (c, b)) (Proc.devRef .tc main_v1) = _
  after_results

/-- At row `o`, column `k`: `w (o, k) · mask (o, k)`. -/
theorem weight_found_apply (c : Dev nD) (o k : Fin 2048) :
    foundW m c (ix2 o k) = argW m c (ix2 o k) * argM m c (ix2 o k) := by
  rw [weight_found]
  rfl

/-- The first operand's array: the activation flattened to `16384` rows. -/
theorem act_found (c : Dev nD) :
    foundX m c = shapeCast S16384x2048 (argX m c) shapeCasts_S4x4096x2048_S16384x2048 := by
  show StableHlo.after hostOps0 (fun b => m (c, b)) (Proc.devRef .tc main_v2) = _
  after_results
  rfl

/-- Row `r = b · 4096 + s` of it is the activation's fibre at batch `b`, position `s`. -/
theorem act_found_apply (c : Dev nD) (b : Fin 4) (s : Fin 4096) (k : Fin 2048) (r : Fin 16384)
    (hr : r.val = b.val * 4096 + s.val) :
    foundX m c (ix2 r k) = argX m c (ix3 b s k) := by
  rw [act_found]
  exact Cert.Rank3Layout.shapeCast_abc_flat_apply _ _ b s k r hr

/-- The third operand's array: the bias as one row. -/
theorem bias_found (c : Dev nD) :
    foundB m c = shapeCast S1x2048 (argB m c) shapeCasts_S2048_S1x2048 := by
  show StableHlo.after hostOps0 (fun b => m (c, b)) (Proc.devRef .tc main_v3) = _
  after_results
  rfl

/-- Its one row at column `o` is the bias at `o`. -/
theorem bias_found_apply (c : Dev nD) (o : Fin 2048) :
    foundB m c (ix2 (0 : Fin 1) o) = argB m c (ix1 o) := by
  rw [bias_found]
  exact shapeCast_a_1a_apply _ _ 0 o

end Cert.KernelIdeal.Inputs

end
-- ==== Proof.KernelValue.lean ====
/-
  The kernel program's result. After the region one host line views the `[16384, 2048]` result array as `[4, 4096, 2048]`:
  `(b, s, o)` reads row `b · 4096 + s`, column `o`. That row of the region's array is the inner product of the flattened
  activation's row `b · 4096 + s` — the activation's fibre `(b, s, ·)` — with row `o` of the masked weight, plus the bias
  row at `o`: the layer's formula, term for term. The argument arrays end as launched.
-/
import proofs.«102846_j91104846283071_2_alg».proof.Proof.RegionArray
import proofs.«102846_j91104846283071_2_alg».proof.Proof.RegionInputs
import proofs.«102846_j91104846283071_2_alg».proof.Proof.LayerSpec

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo
open Cert.KernelIdeal.Inputs Cert.KernelIdeal.Region

variable (m : (ℓ : Loc nD τ sig) → Buf (Elt Ideal) ℓ) (ρ : Dev nD → PrngReg)

/-- The program's result buffer after the last host line: the region's array viewed as `[4, 4096, 2048]`. -/
theorem result_found (c : Dev nD) :
    (Pipeline.afterTail₀ cfgs (dats m) 0 (V0 m) [hostOps1] c main_v5 : FVec Ideal S4x4096x2048 .f32)
      = shapeCast S4x4096x2048 (rows (foundX m c) (foundW m c) (foundB m c)) shapeCasts_S16384x2048_S4x4096x2048 := by
  unfold Pipeline.afterTail₀
  show StableHlo.after hostOps1 _ (Proc.devRef .tc main_v5) = _
  after_results
  exact congrArg
    (fun A : FVec Ideal S16384x2048 .f32 => shapeCast S4x4096x2048 A shapeCasts_S16384x2048_S4x4096x2048)
    ((Pipeline.withArrays_arr spec0 launch0.win.arr_inj c (V0 m c) (fun w => (dats m 0 c).arrAt w (cfgs 0).N) 3).trans
      (region_result m c))

/-- Index by index it is the layer of the argument arrays: at `(b, s, o)` the view reads row `b · 4096 + s`, whose
    activation row is the fibre `(b, s, ·)`; weight row `o` is `w (o, ·) · mask (o, ·)`; the bias row at `o` is `bias o`. -/
theorem result_eq_layer (c : Dev nD) :
    (Pipeline.afterTail₀ cfgs (dats m) 0 (V0 m) [hostOps1] c main_v5 : FVec Ideal S4x4096x2048 .f32)
      = Cert.MaskedLinear.layer (argX m c) (argW m c) (argM m c) (argB m c) := by
  rw [result_found]
  funext i
  obtain ⟨b, s, o, rfl⟩ : ∃ (b : Fin 4) (s : Fin 4096) (o : Fin 2048), i = ix3 b s o := ⟨i 0, i 1, i 2, eq_ix3 i⟩
  have hb : b.val < 4 := b.isLt
  have hs : s.val < 4096 := s.isLt
  rw [Cert.Rank3Layout.shapeCast_flat_abc_apply _ _ b s o ⟨b.val * 4096 + s.val, by omega⟩ rfl,
    Cert.MaskedLinear.layer_apply]
  unfold rows
  refine congrArg₂ (· + ·) (Finset.sum_congr rfl fun k _ => congrArg₂ (· * ·) ?_ ?_) ?_
  · exact act_found_apply m c b s k ⟨b.val * 4096 + s.val, by omega⟩ rfl
  · exact weight_found_apply m c o k
  · exact bias_found_apply m c o

/-- The kernel program's run, read: every weakly fair execution terminates with the result buffer at the layer of the
    argument arrays as launched, and the argument arrays unchanged. -/
theorem run : θ_run defs (onTc (τ := τ) (main (F := Ideal))) ⟨m, fun _ => 0, ρ⟩ fun r => ∀ c : Dev nD,
      r.2.mem ((c : Thread nD τ).loc main_v5) = Cert.MaskedLinear.layer (argX m c) (argW m c) (argM m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (result_eq_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.lean ====
/-
  The masked linear layer `y (b, s, o) = (∑ k, x (b, s, k) · (w (o, k) · mask (o, k))) + bias o`: a tiled kernel against
  a one-line reference, equal on the extended reals.

  The reference multiplies weight and mask entry by entry, contracts the activation's last axis with the masked weight's
  last axis, and adds the bias laid over the two leading axes. The kernel program forms the same masked weight on the host,
  flattens the activation to `16384` rows, and computes the `[16384, 2048]` result 512 rows at a time: each grid point
  multiplies its 512 activation rows by the whole masked weight (both contracted on their last axis, into a zero
  accumulator) and adds the bias row; a last host line views the result as `[4, 4096, 2048]`. A change of float format is
  the identity on the extended reals and `0 + s = s` there, so at every index both sides are the SAME sum over the same
  feature coordinate of the same products, plus the same bias entry: no sum is reordered, nothing is distributed or
  cancelled, and the precondition (every input finite) is never opened.

  Modules: `LayerSpec` states the layer; `ReferenceIsLayer` reads the reference's five operations at an index;
  `BodyAtIndex` reads one grid point's tile at an index; `RegionInputs` reads the three arrays the region finds;
  `RegionArray` shows every tile is a block of one function of those arrays and that the 32 tiles cover the result;
  `KernelValue` reads the last host line and states the kernel program's run. The three frame claims are the generated
  frames (the reference's is its generated run with the result dropped); the idealization rewrote no operation, so there is
  nothing to preserve.
-/
import proofs.«102846_j91104846283071_2_alg».proof.Defs
import proofs.«102846_j91104846283071_2_alg».proof.Proof.Gen.Kernel
import proofs.«102846_j91104846283071_2_alg».proof.Proof.Gen.Kernel.Skeleton
import proofs.«102846_j91104846283071_2_alg».proof.Proof.Gen.Kernel.Launch
import proofs.«102846_j91104846283071_2_alg».proof.Proof.Gen.Kernel.Points
import proofs.«102846_j91104846283071_2_alg».proof.Proof.Gen.Kernel.Frame
import proofs.«102846_j91104846283071_2_alg».proof.Proof.Gen.KernelIdeal
import proofs.«102846_j91104846283071_2_alg».proof.Proof.Gen.KernelIdeal.Skeleton
import proofs.«102846_j91104846283071_2_alg».proof.Proof.Gen.KernelIdeal.Launch
import proofs.«102846_j91104846283071_2_alg».proof.Proof.Gen.KernelIdeal.Points
import proofs.«102846_j91104846283071_2_alg».proof.Proof.Gen.KernelIdeal.Frame
import proofs.«102846_j91104846283071_2_alg».proof.Proof.Gen.ReferenceIdeal
import proofs.«102846_j91104846283071_2_alg».proof.Proof.Gen.ReferenceIdeal.Run
import proofs.«102846_j91104846283071_2_alg».proof.Proof.Gen.ReferenceIdeal.Read
import proofs.«102846_j91104846283071_2_alg».proof.Proof.Gen.Pre_finite_inputs
import Idealize.ShloMosaic.Adequacy
import Idealize.ShloMosaic.Init

import proofs.«102846_j91104846283071_2_alg».proof.Proof.LayerSpec
import proofs.«102846_j91104846283071_2_alg».proof.Proof.ReferenceIsLayer
import proofs.«102846_j91104846283071_2_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs, run from memories that agree on the four arguments, end with their result buffers at the layer of
    those arguments: the kernel program by `KernelValue.run`, the reference by its generated run read as the layer. -/
theorem algebraic : Cert.algebraic_KernelIdeal_ReferenceIdeal := by
  intro m ρ m' ρ' _ hagree
  refine ⟨fun c => Cert.MaskedLinear.layer (Cert.KernelIdeal.Inputs.argX m c) (Cert.KernelIdeal.Inputs.argW m c)
    (Cert.KernelIdeal.Inputs.argM m c) (Cert.KernelIdeal.Inputs.argB m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
